-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S1600000x4 : Shape := ⟨2, ![1600000, 4]⟩
abbrev S100000 : Shape := ⟨1, ![100000]⟩
abbrev S6x64 : Shape := ⟨2, ![6, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32 .f32) (main_arg10 : FVec F S32x1 .f32) (main_arg11 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg10
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x32 .f32) (main_arg9 : FVec F S32 .f32) (main_arg10 : FVec F S32x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x6 .f32) (main_arg1 : IVec S2x1600000 32) (main_arg2 : FVec F S1600000x4 .f32) (main_arg3 : IVec S100000 32) (main_arg4 : FVec F S6x64 .f32) (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S6x64 .f32 := Host.absf main_arg4
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x6 : Shape := ⟨2, ![100000, 6]⟩
abbrev S2x1600000 : Shape := ⟨2, ![2, 1600000]⟩
abbrev S1600000x4 : Shape := ⟨2, ![1600000, 4]⟩
abbrev S100000 : Shape := ⟨1, ![100000]⟩
abbrev S6x64 : Shape := ⟨2, ![6, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x6 : Shape := ⟨2, ![2000, 6]⟩
abbrev S2000x64 : Shape := ⟨2, ![2000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x32 : Shape := ⟨2, ![1, 32]⟩
abbrev S1x1 : Shape := ⟨2, ![1, 1]⟩
abbrev S1000x32 : Shape := ⟨2, ![1000, 32]⟩

abbrev nBuf : Space → Nat
  | .hbm => 101
  | .vmem => 22
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S1600000x4, .f32⟩
  | .hbm, ⟨3, _⟩ => ⟨S100000, .i32⟩
  | .hbm, ⟨4, _⟩ => ⟨S6x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S_, .f32⟩
  | .hbm, ⟨83, _⟩ => ⟨S1000x64, .f32⟩
  | .hbm, ⟨84, _⟩ => ⟨S100000x1, .i32⟩
  | .hbm, ⟨85, _⟩ => ⟨S1000x64, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S1000, .f32⟩
  | .hbm, ⟨90, _⟩ => ⟨S100000x1, .i32⟩
  | .hbm, ⟨91, _⟩ => ⟨S1000, .f32⟩
  | .hbm, ⟨92, _⟩ => ⟨S_, .f32⟩
  | .hbm, ⟨93, _⟩ => ⟨S1000, .f32⟩
  | .hbm, ⟨94, _⟩ => ⟨S1000, .f32⟩
  | .hbm, ⟨95, _⟩ => ⟨S1000x1, .f32⟩
  | .hbm, ⟨96, _⟩ => ⟨S1000x64, .f32⟩
  | .hbm, ⟨97, _⟩ => ⟨S1000x64, .f32⟩
  | .hbm, ⟨98, _⟩ => ⟨S1x32, .f32⟩
  | .hbm, ⟨99, _⟩ => ⟨S1x1, .f32⟩
  | .hbm, ⟨100, _⟩ => ⟨S1000x1, .f32⟩
  | .local _ .vmem, ⟨0, _⟩ => ⟨S2000x6, .f32⟩
  | .local _ .vmem, ⟨1, _⟩ => ⟨S2000x6, .f32⟩
  | .local _ .vmem, ⟨2, _⟩ => ⟨S6x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S1000x64, .f32⟩
  | .local _ .vmem, ⟨17, _⟩ => ⟨S64x32, .f32⟩
  | .local _ .vmem, ⟨18, _⟩ => ⟨S1x32, .f32⟩
  | .local _ .vmem, ⟨19, _⟩ => ⟨S32x1, .f32⟩
  | .local _ .vmem, ⟨20, _⟩ => ⟨S1x1, .f32⟩
  | .local _ .vmem, ⟨21, _⟩ => ⟨S1000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1000x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x6_S2000x6_0_0 : ∀ a, (![0, 0] : Fin 2 → Nat) a + S2000x6.size a ≤ S2000x6.size a
  h_S2000x6 : 0 < S2000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  shapeCasts_S32_S1x32 : S32.ShapeCasts S1x32
  shapeCasts_S1_S1x1 : S1.ShapeCasts S1x1
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x6_S6x64_S2000x64_1_0_0_1_n_n_wf : DotDims.WF S2000x6 S6x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x32_S1000x32_1_0_0_1_n_n_wf : DotDims.WF S1000x64 S64x32 S1000x32 [1] [0] [0] [1] [] []
  dot_S1000x32_S32x1_S1000x1_1_0_0_1_n_n_wf : DotDims.WF S1000x32 S32x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S1000x64.size a
  hwx3_0 : ∀ i : grid3.Coords, EltTy.bits .f32 = 32 ∨ (Rect.block (s := S1000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x1.size a ≤ S32x1.size a
  hwx3_3 : ∀ i : grid3.Coords, EltTy.bits .f32 = 32 ∨ (Rect.block (s := S32x1) S32x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1000x1.size a ≤ S1000x1.size a
  hwx3_5 : ∀ i : grid3.Coords, EltTy.bits .f32 = 32 ∨ (Rect.block (s := S1000x1) S1000x1.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x6_S6x64_S2000x64_1_0_0_1_n_n : DotDims S2000x6 S6x64 S2000x64 where
  lhsContracting := [1]
  rhsContracting := [0]
  lhsNonContracting := [0]
  rhsNonContracting := [1]
  lhsBatch := []
  rhsBatch := []
  wf := dot_S2000x6_S6x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf

abbrev win0_0 : Pipeline.Window sig grid0 :=
  Pipeline.Window.ofSpec (Memref.whole main_arg0) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S1000x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S32x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1000x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S1600000x4 : Shape := ⟨2, ![1600000, 4]⟩
abbrev S100000 : Shape := ⟨1, ![100000]⟩
abbrev S6x64 : Shape := ⟨2, ![6, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x32 : Shape := ⟨2, ![1000, 32]⟩
abbrev S1x32 : Shape := ⟨2, ![1, 32]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S1600000x4, .f32⟩
  | .hbm, ⟨3, _⟩ => ⟨S100000, .i32⟩
  | .hbm, ⟨4, _⟩ => ⟨S6x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S1000x64, .f32⟩
  | .hbm, ⟨93, _⟩ => ⟨S100000x1, .i32⟩
  | .hbm, ⟨94, _⟩ => ⟨S1000x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S1000, .f32⟩
  | .hbm, ⟨99, _⟩ => ⟨S100000x1, .i32⟩
  | .hbm, ⟨100, _⟩ => ⟨S1000, .f32⟩
  | .hbm, ⟨101, _⟩ => ⟨S_, .f32⟩
  | .hbm, ⟨102, _⟩ => ⟨S1000, .f32⟩
  | .hbm, ⟨103, _⟩ => ⟨S1000, .f32⟩
  | .hbm, ⟨104, _⟩ => ⟨S1000x1, .f32⟩
  | .hbm, ⟨105, _⟩ => ⟨S1000x64, .f32⟩
  | .hbm, ⟨106, _⟩ => ⟨S1000x64, .f32⟩
  | .hbm, ⟨107, _⟩ => ⟨S1000x32, .f32⟩
  | .hbm, ⟨108, _⟩ => ⟨S1x32, .f32⟩
  | .hbm, ⟨109, _⟩ => ⟨S1000x32, .f32⟩
  | .hbm, ⟨110, _⟩ => ⟨S1000x32, .f32⟩
  | .hbm, ⟨111, _⟩ => ⟨S_, .f32⟩
  | .hbm, ⟨112, _⟩ => ⟨S1000x32, .f32⟩
  | .hbm, ⟨113, _⟩ => ⟨S1000x32, .f32⟩
  | .hbm, ⟨114, _⟩ => ⟨S1000x1, .f32⟩
  | .hbm, ⟨115, _⟩ => ⟨S1x1, .f32⟩
  | .hbm, ⟨116, _⟩ => ⟨S1000x1, .f32⟩
  | .hbm, ⟨117, _⟩ => ⟨S1000x1, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call2_cst : Ref sig .tc := ⟨.hbm, 111, rfl⟩
abbrev main_call2_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S32_S1x32_1 : S32.BroadcastsInDim S1x32 (![1] : Fin 1 → Fin S1x32.rank)
  bcast_S1x32_S1000x32_0_1 : S1x32.BroadcastsInDim S1000x32 (![0, 1] : Fin 2 → Fin S1000x32.rank)
  bcast_S_S1000x32 : S_.BroadcastsInDim S1000x32 (![] : Fin 0 → Fin S1000x32.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x6_S6x64_S100000x64_1_0_0_1_n_n_wf : DotDims.WF S100000x6 S6x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x32_S1000x32_1_0_0_1_n_n_wf : DotDims.WF S1000x64 S64x32 S1000x32 [1] [0] [0] [1] [] []
  dot_S1000x32_S32x1_S1000x1_1_0_0_1_n_n_wf : DotDims.WF S1000x32 S32x1 S1000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf

class Facts : Prop extends Facts₀ where

variable [Facts]
-- ==== Proof.KernelRun.lean ====
/-
  The kernel program's run with every buffer named at the end.

  The program is four kernel launches among four stretches of host operations. Its run is the chain of these eight
  segments from the launch memory; the buffer contents at each boundary are a fold through the program
  (`W1` … `W8`: a stretch's operations applied to the contents before it; a launch's arrays at what its
  write-backs leave, every other buffer as it was). Here the run is stated with the whole last boundary in its post:
  every weakly fair execution terminates, nothing faults, and every buffer that is not a kernel's scratch ends
  holding the last boundary's contents — in particular the result buffer and the twelve arguments.
-/
import proofs.«128732_j91190745629253_1_alg».proof.Proof.Gen.KernelIdeal.Frame

set_option maxRecDepth 16384

noncomputable section

namespace Cert.KernelIdeal.Arrays

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, every unscoped buffer read at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result buffer and the arguments named: the result at the last boundary's contents, the
    arguments as launched. -/
theorem run_named : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v72 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)
    (run_all m ρ)

end Cert.KernelIdeal.Arrays

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.Payloads.lean ====
/-
  What each of the four kernel bodies computes, read at one entry of its result block, at the ideal values.

  Every body loads whole blocks, computes, and stores one whole block. Written over the loaded blocks:

  * the first product kernel: a `2000 × 6` block of node features times the `6 × 64` weights — entry `(p, q)` is
    `∑ k, x (p, k) * w (k, q)`;
  * the second: bias row added to a `2000 × 64` block, the positive part taken, the result times the `64 × 64`
    weights — entry `(p, q)` is `∑ k, max (a (p, k) + b (0, k)) 0 * w (k, q)`;
  * the third: bias row added and the positive part taken — entry `(p, q)` is `max (a (p, q) + b (0, q)) 0`;
  * the last: the two-layer head on the `1000 × 64` pooled features — entry `(p, 0)` is
    `(∑ k, max ((∑ j, P (p, j) * w₁ (j, k)) + b₁ (0, k)) 0 * w₂ (k, 0)) + b₂ (0, 0)`.

  The roundings to bf16 on the way into a product are the identity at the ideal values, a product into the zero
  accumulator is the plain sum, and the zero of the positive part is kept as the word it is printed with.
-/
import proofs.«128732_j91190745629253_1_alg».proof.Proof.Gen.KernelIdeal.Skeleton
import proofs.«128732_j91190745629253_1_alg».proof.Proof.LibPlainDot
import Idealize.ShloMosaic.Lib.Pipeline.Value
import Idealize.ShloMosaic.Lib.ValueLayout

open Idealize.ShloMosaic Idealize.ShloMosaic.ValueIdx Cert.KernelIdeal Cert.KernelIdeal.Gen
open scoped BigOperators

noncomputable section

namespace Cert.KernelIdeal.Bodies

/-- The zero the positive part is taken against, as printed. -/
abbrev z32 : EReal := Ideal.ofBits .f32 0x00000000#32

/-- The first product kernel at entry `(p, q)`. -/
theorem pay0_apply (x : Vec Ideal S2000x6 .f32) (w : Vec Ideal S6x64 .f32) (p : Fin 2000) (q : Fin 64) :
    k0_pay1 x w (ix2 p q) = ∑ k : Fin 6, x (ix2 p k) * w (ix2 k q) :=
  Cert.LibPlainDot.matmul_zero_plain (M := 2000) (K := 6) (N := 64) none
    (truncf .bf16 x bitsLt_bf16_f32) (truncf .bf16 w bitsLt_bf16_f32) p q

/-- The biased, rectified block of the second and third kernels at entry `(p, k)`. -/
theorem biasRelu_apply (a : Vec Ideal S2000x64 .f32) (b : Vec Ideal S1x64 .f32) (p : Fin 2000) (k : Fin 64) :
    maximumf (addf (shapeCast S2000x64 a shapeCasts_S2000x64_S2000x64)
        (broadcastTo S2000x64 (shapeCast S1x64 b shapeCasts_S1x64_S1x64) broadcasts_S1x64_S2000x64))
      (broadcast S2000x64 (Scalar.ofBits (F := Ideal) .f32 0x00000000#32)) (ix2 p k)
      = max (a (ix2 p k) + b (ix2 (0 : Fin 1) k)) z32 := by
  rw [shapeCast_self, shapeCast_self]
  show max (a (ix2 p k) + broadcastTo S2000x64 b broadcasts_S1x64_S2000x64 (ix2 p k)) _ = _
  rw [broadcastTo_1b_ab_apply]
  rfl

/-- The third kernel at entry `(p, q)`. -/
theorem pay2_apply (a : Vec Ideal S2000x64 .f32) (b : Vec Ideal S1x64 .f32) (p : Fin 2000) (q : Fin 64) :
    k2_pay1 a b (ix2 p q) = max (a (ix2 p q) + b (ix2 (0 : Fin 1) q)) z32 :=
  biasRelu_apply a b p q

/-- The second kernel at entry `(p, q)`. -/
theorem pay1_apply (a : Vec Ideal S2000x64 .f32) (b : Vec Ideal S1x64 .f32) (w : Vec Ideal S64x64 .f32)
    (p : Fin 2000) (q : Fin 64) :
    k1_pay1 a b w (ix2 p q) = ∑ k : Fin 64, max (a (ix2 p k) + b (ix2 (0 : Fin 1) k)) z32 * w (ix2 k q) := by
  refine (Cert.LibPlainDot.matmul_zero_plain (M := 2000) (K := 64) (N := 64) none
    (truncf .bf16 (maximumf (addf (shapeCast S2000x64 a shapeCasts_S2000x64_S2000x64)
        (broadcastTo S2000x64 (shapeCast S1x64 b shapeCasts_S1x64_S1x64) broadcasts_S1x64_S2000x64))
      (broadcast S2000x64 (Scalar.ofBits (F := Ideal) .f32 0x00000000#32))) bitsLt_bf16_f32)
    (truncf .bf16 w bitsLt_bf16_f32) p q).trans ?_
  refine Finset.sum_congr rfl fun k _ => ?_
  exact congrArg (· * w (ix2 k q)) (biasRelu_apply a b p k)

/-- The head's hidden layer at entry `(p, k)`: the pooled row times the first weights, plus the bias, rectified. -/
theorem hidden_apply (P : Vec Ideal S1000x64 .f32) (w₁ : Vec Ideal S64x32 .f32) (b₁ : Vec Ideal S1x32 .f32)
    (p : Fin 1000) (k : Fin 32) :
    maximumf (addf (matmul dot_S1000x64_S64x32_S1000x32_1_0_0_1_n_n none
          (truncf .bf16 (shapeCast S1000x64 P shapeCasts_S1000x64_S1000x64) bitsLt_bf16_f32)
          (truncf .bf16 w₁ bitsLt_bf16_f32) (constant S1000x32 .f32 0x00000000#32))
        (broadcastTo S1000x32 (shapeCast S1x32 b₁ shapeCasts_S1x32_S1x32) broadcasts_S1x32_S1000x32))
      (broadcast S1000x32 (Scalar.ofBits (F := Ideal) .f32 0x00000000#32)) (ix2 p k)
      = max ((∑ j : Fin 64, P (ix2 p j) * w₁ (ix2 j k)) + b₁ (ix2 (0 : Fin 1) k)) z32 := by
  rw [shapeCast_self, shapeCast_self]
  show max (FloatOps.matmul (F := Ideal) (DotDims.plain 1000 64 32) none
      (truncf .bf16 P bitsLt_bf16_f32 : FVec Ideal S1000x64 .bf16)
      (truncf .bf16 w₁ bitsLt_bf16_f32 : FVec Ideal S64x32 .bf16) (constant ⟨2, ![1000, 32]⟩ .f32 0x00000000#32) (ix2 p k)
    + broadcastTo S1000x32 b₁ broadcasts_S1x32_S1000x32 (ix2 p k)) _ = _
  rw [Cert.LibPlainDot.matmul_zero_plain, broadcastTo_1b_ab_apply]
  rfl

/-- The head kernel at entry `(p, q)` of its one result column. -/
theorem pay3_apply (P : Vec Ideal S1000x64 .f32) (w₁ : Vec Ideal S64x32 .f32) (b₁ : Vec Ideal S1x32 .f32)
    (w₂ : Vec Ideal S32x1 .f32) (b₂ : Vec Ideal S1x1 .f32) (p : Fin 1000) (q : Fin 1) :
    k3_pay1 P w₁ b₁ w₂ b₂ (ix2 p q)
      = (∑ k : Fin 32, max ((∑ j : Fin 64, P (ix2 p j) * w₁ (ix2 j k)) + b₁ (ix2 (0 : Fin 1) k)) z32 * w₂ (ix2 k q))
        + b₂ (ix2 (0 : Fin 1) q) := by
  unfold k3_pay1
  rw [shapeCast_self (s := S1x1)]
  show FloatOps.matmul (F := Ideal) (DotDims.plain 1000 32 1) none
      (truncf .bf16 (maximumf (addf (matmul dot_S1000x64_S64x32_S1000x32_1_0_0_1_n_n none
          (truncf .bf16 (shapeCast S1000x64 P shapeCasts_S1000x64_S1000x64) bitsLt_bf16_f32)
          (truncf .bf16 w₁ bitsLt_bf16_f32) (constant S1000x32 .f32 0x00000000#32))
        (broadcastTo S1000x32 (shapeCast S1x32 b₁ shapeCasts_S1x32_S1x32) broadcasts_S1x32_S1000x32))
      (broadcast S1000x32 (Scalar.ofBits (F := Ideal) .f32 0x00000000#32))) bitsLt_bf16_f32 : FVec Ideal S1000x32 .bf16)
      (truncf .bf16 w₂ bitsLt_bf16_f32 : FVec Ideal S32x1 .bf16) (constant ⟨2, ![1000, 1]⟩ .f32 0x00000000#32) (ix2 p q)
    + broadcastTo S1000x1 b₂ broadcasts_S1x1_S1000x1 (ix2 p q) = _
  rw [Cert.LibPlainDot.matmul_zero_plain, broadcastTo_1b_ab_apply]
  refine congrArg (· + b₂ (ix2 (0 : Fin 1) q)) (Finset.sum_congr rfl fun k _ => ?_)
  exact congrArg (· * w₂ (ix2 k q)) (hidden_apply P w₁ b₁ p k)

end Cert.KernelIdeal.Bodies

end
-- ==== Proof.Spec.lean ====
/-
  The four dense stages of the network as whole-array functions, entry by entry, over the extended reals.

  Between the gathers and scatter-adds over the edges (which both programs do with the same host operations) the
  network has four dense stages; each is stated here once, as one function of whole arrays:

  * `nodeProduct X W`: the `100000 × 6` node features times the `6 × 64` weights;
  * `biasReluProduct A b W`: a bias row added to the `100000 × 64` aggregate, the positive part taken, the result
    times the `64 × 64` weights;
  * `biasRelu A b`: a bias row added and the positive part taken;
  * `head P w₁ b₁ w₂ b₂`: the two-layer head on the `1000 × 64` pooled features,
    `(∑ k, max ((∑ j, P (g, j) * w₁ (j, k)) + b₁ (0, k)) 0 * w₂ (k, 0)) + b₂ (0, 0)`.

  A bias is taken as a `1 × n` row. The zero of the positive part is kept as the float word both programs print.
  The kernel computes each stage block of rows by block of rows, the reference in one piece; each row of a result
  depends on the same row of the first operand only, so no law beyond reading both at an entry is needed.
-/
import Idealize.ShloMosaic.Lib.ValueIdx

open Idealize.ShloMosaic Idealize.ShloMosaic.ValueIdx
open scoped BigOperators

noncomputable section

namespace Cert.Spec

/-- The zero the positive part is taken against, as printed. -/
abbrev z32 : EReal := Ideal.ofBits .f32 0x00000000#32

/-- Node features times the first layer's weights. -/
def nodeProduct (X : (⟨2, ![100000, 6]⟩ : Shape).Idx → EReal) (W : (⟨2, ![6, 64]⟩ : Shape).Idx → EReal) :
    (⟨2, ![100000, 64]⟩ : Shape).Idx → EReal :=
  fun i => ∑ k : Fin 6, X (ix2 (n0 := 100000) (i 0) k) * W (ix2 (n1 := 64) k (i 1))

/-- Bias, positive part, then the second layer's weights. -/
def biasReluProduct (A : (⟨2, ![100000, 64]⟩ : Shape).Idx → EReal) (b : (⟨2, ![1, 64]⟩ : Shape).Idx → EReal)
    (W : (⟨2, ![64, 64]⟩ : Shape).Idx → EReal) : (⟨2, ![100000, 64]⟩ : Shape).Idx → EReal :=
  fun i => ∑ k : Fin 64, max (A (ix2 (n0 := 100000) (i 0) k) + b (ix2 (0 : Fin 1) k)) z32 * W (ix2 (n1 := 64) k (i 1))

/-- Bias, then the positive part. -/
def biasRelu (A : (⟨2, ![100000, 64]⟩ : Shape).Idx → EReal) (b : (⟨2, ![1, 64]⟩ : Shape).Idx → EReal) :
    (⟨2, ![100000, 64]⟩ : Shape).Idx → EReal :=
  fun i => max (A (ix2 (n0 := 100000) (n1 := 64) (i 0) (i 1)) + b (ix2 (0 : Fin 1) (n1 := 64) (i 1))) z32

/-- The two-layer head on the pooled features. -/
def head (P : (⟨2, ![1000, 64]⟩ : Shape).Idx → EReal) (w₁ : (⟨2, ![64, 32]⟩ : Shape).Idx → EReal)
    (b₁ : (⟨2, ![1, 32]⟩ : Shape).Idx → EReal) (w₂ : (⟨2, ![32, 1]⟩ : Shape).Idx → EReal)
    (b₂ : (⟨2, ![1, 1]⟩ : Shape).Idx → EReal) : (⟨2, ![1000, 1]⟩ : Shape).Idx → EReal :=
  fun i => (∑ k : Fin 32, max ((∑ j : Fin 64, P (ix2 (n0 := 1000) (i 0) j) * w₁ (ix2 j k)) + b₁ (ix2 (0 : Fin 1) k)) z32
      * w₂ (ix2 (n1 := 1) k (i 1))) + b₂ (ix2 (0 : Fin 1) (n1 := 1) (i 1))

end Cert.Spec

end
-- ==== Proof.Region0.lean ====
/-
  The first product kernel's result array as one function of its operand arrays.

  The grid has 50 points; point `t` reads rows `2000 t … 2000 t + 1999` of the node features and the whole
  `6 × 64` weight matrix, and writes rows `2000 t … 2000 t + 1999` of the result. Entry `(p, q)` of the block it
  writes is `∑ k, x (2000 t + p, k) * w (k, q)`, which is entry `(2000 t + p, q)` of the whole product; the fifty
  row blocks cover the `100000` rows (row `r` lies in block `r / 2000`), so the array ends holding the whole product.
-/
import proofs.«128732_j91190745629253_1_alg».proof.Proof.Gen.KernelIdeal.Frame
import proofs.«128732_j91190745629253_1_alg».proof.Proof.Payloads
import proofs.«128732_j91190745629253_1_alg».proof.Proof.Spec
import Idealize.ShloMosaic.Lib.Pipeline.Value

set_option maxRecDepth 16384

open Idealize.ShloMosaic Idealize.ShloMosaic.TcCoe Idealize.ShloMosaic.ValueIdx Idealize.SL.Sem
open Cert.KernelIdeal Cert.KernelIdeal.Gen Cert.KernelIdeal.Bodies
open scoped BigOperators

noncomputable section

namespace Cert.KernelIdeal.Arrays0

variable (V : (c : Dev nD) → (b : Ref sig .tc) → Buf (Elt Ideal) ((c : Thread nD τ).loc b))

theorem zero2 : (![0, 0] : Fin 2 → Nat) = fun _ => 0 := funext fun a => by fin_cases a <;> rfl

/-- The block index maps over the grid: the row-blocked windows are at block `(t, 0)`, the weights at `(0, 0)`. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt50_0 (t : Fin cfg0.N) : t.val < 50 := by have h : t.val < grid0.N := t.isLt; have hN : grid0.N = 50 := N_0; omega

/-- Row `p` of point `t`'s block is row `2000 t + p` of the array. -/
def row0 (t : Fin cfg0.N) (p : Fin 2000) : Fin 100000 := ⟨t.val * 2000 + p.val, by have := lt50_0 t; omega⟩

/-- The features' block at point `t`, entry `(p, k)`. -/
theorem blk0_0 (c : Dev nD) (t : Fin cfg0.N) (p : Fin 2000) (k : Fin 6) :
    iblk0 V c 0 t (ix2 p k) = V c main_arg0 (ix2 (row0 t p) k) := by
  show V c main_arg0 (((cfg0.win 0).blk t).view.emb (ix2 p k)) = V c main_arg0 (ix2 (row0 t p) k)
  refine congrArg _ (funext fun a => Fin.ext ?_)
  obtain ⟨e0, e1, -⟩ := index0 t
  match a with
  | ⟨0, _⟩ => show win0_0.index t (0 : Fin 2) * 2000 + 1 * p.val = t.val * 2000 + p.val; omega
  | ⟨1, _⟩ => show win0_0.index t (1 : Fin 2) * 6 + 1 * k.val = k.val; omega

/-- The weights' block at every point is the whole matrix. -/
theorem blk0_1 (c : Dev nD) (t : Fin cfg0.N) (k : Fin 6) (q : Fin 64) :
    iblk0 V c 1 t (ix2 k q) = V c main_arg4 (ix2 k q) := by
  show V c main_arg4 (((cfg0.win 1).blk t).view.emb (ix2 k q)) = V c main_arg4 (ix2 k q)
  refine congrArg _ (funext fun a => Fin.ext ?_)
  obtain ⟨-, -, e2, e3, -⟩ := index0 t
  match a with
  | ⟨0, _⟩ => show win0_1.index t (0 : Fin 2) * 6 + 1 * k.val = k.val; omega
  | ⟨1, _⟩ => show win0_1.index t (1 : Fin 2) * 64 + 1 * q.val = q.val; omega

/-- Where entry `(p, q)` of the result's block at point `t` sits in the array. -/
theorem emb0_2 (t : Fin cfg0.N) (p : Fin 2000) (q : Fin 64) :
    ((cfg0.win 2).blk t).view.emb (ix2 p q) = ix2 (row0 t p) q := by
  refine funext fun a => Fin.ext ?_
  obtain ⟨-, -, -, -, e4, e5⟩ := index0 t
  match a with
  | ⟨0, _⟩ => show win0_2.index t (0 : Fin 2) * 2000 + 1 * p.val = t.val * 2000 + p.val; omega
  | ⟨1, _⟩ => show win0_2.index t (1 : Fin 2) * 64 + 1 * q.val = q.val; omega

/-- What point `t` writes back is block `t` of the whole product. -/
theorem flushed0 (c : Dev nD) (t : Fin cfg0.N) :
    (dat0 V c).flushed 2 t
      = ((cfg0.win 2).blk t).view.read (Elt Ideal) (Cert.Spec.nodeProduct (V c main_arg0) (V c main_arg4)) := by
  show (cfg0.win 2).cut (grid0.coords t) ((dat0 V c).after 2 t) = _
  rw [after0_2]
  unfold out0_2
  rw [View.canon_unit_zero zero2]
  simp only [View.ld_unit_zero (S := S2000x6) zero2, View.ld_unit_zero (S := S6x64) zero2]
  funext j
  obtain ⟨p, q, rfl⟩ : ∃ (p : Fin 2000) (q : Fin 64), j = ix2 p q := ⟨j 0, j 1, eq_ix2 j⟩
  show k0_pay1 (iblk0 V c 0 t) (iblk0 V c 1 t) (ix2 p q)
    = Cert.Spec.nodeProduct (V c main_arg0) (V c main_arg4) (((cfg0.win 2).blk t).view.emb (ix2 p q))
  rw [emb0_2]
  refine (pay0_apply (iblk0 V c 0 t) (iblk0 V c 1 t) p q).trans ?_
  unfold Cert.Spec.nodeProduct
  refine Finset.sum_congr rfl fun k _ => ?_
  rw [blk0_0 V c t p k, blk0_1 V c t k q]

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v27).slice (win0_2.rect t)).set ↔ _
  rw [View.set_slice_whole, Rect.mem_set_unit]
  exact Iff.rfl

/-- Every row lies in some point's block: row `r` in block `r / 2000`. -/
theorem cover0 (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have hN : grid0.N = 50 := N_0
  let t : Fin cfg0.N := ⟨(i 0).val / 2000, by show (i 0).val / 2000 < grid0.N; omega⟩
  refine ⟨t, flush0_2 t, ?_⟩
  rw [mem_blk0]
  obtain ⟨-, -, -, -, e4, e5⟩ := index0 t
  have ht : t.val = (i 0).val / 2000 := rfl
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the region: the whole product of the operand arrays as the region finds them. -/
theorem final0 (c : Dev nD) :
    (dat0 V c).arrAt 2 cfg0.N = Cert.Spec.nodeProduct (V c main_arg0) (V c main_arg4) :=
  (dat0 V c).arrAt_eq_of_cover 2 _ (fun t _ => flushed0 V c t) cover0

end Cert.KernelIdeal.Arrays0

end
-- ==== Proof.Region1.lean ====
/-
  The second kernel's result array as one function of its operand arrays.

  Point `t` of the 50 reads rows `2000 t … 2000 t + 1999` of the aggregate, the whole `1 × 64` bias row and the
  whole `64 × 64` weight matrix, and writes the same rows of the result: entry `(p, q)` of its block is
  `∑ k, max (a (2000 t + p, k) + b (0, k)) 0 * w (k, q)`, entry `(2000 t + p, q)` of the whole-array function; the
  row blocks cover the array.
-/
import proofs.«128732_j91190745629253_1_alg».proof.Proof.Gen.KernelIdeal.Frame
import proofs.«128732_j91190745629253_1_alg».proof.Proof.Payloads
import proofs.«128732_j91190745629253_1_alg».proof.Proof.Spec
import Idealize.ShloMosaic.Lib.Pipeline.Value

set_option maxRecDepth 16384

open Idealize.ShloMosaic Idealize.ShloMosaic.TcCoe Idealize.ShloMosaic.ValueIdx Idealize.SL.Sem
open Cert.KernelIdeal Cert.KernelIdeal.Gen Cert.KernelIdeal.Bodies
open scoped BigOperators

noncomputable section

namespace Cert.KernelIdeal.Arrays1

variable (V : (c : Dev nD) → (b : Ref sig .tc) → Buf (Elt Ideal) ((c : Thread nD τ).loc b))

theorem zero2 : (![0, 0] : Fin 2 → Nat) = fun _ => 0 := funext fun a => by fin_cases a <;> rfl

/-- The block index maps over the grid: the row-blocked windows are at block `(t, 0)`, the bias row and the weights
    at `(0, 0)`. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt50_1 (t : Fin cfg1.N) : t.val < 50 := by have h : t.val < grid1.N := t.isLt; have hN : grid1.N = 50 := N_1; omega

/-- Row `p` of point `t`'s block is row `2000 t + p` of the array. -/
def row1 (t : Fin cfg1.N) (p : Fin 2000) : Fin 100000 := ⟨t.val * 2000 + p.val, by have := lt50_1 t; omega⟩

/-- The aggregate's block at point `t`, entry `(p, k)`. -/
theorem blk1_0 (c : Dev nD) (t : Fin cfg1.N) (p : Fin 2000) (k : Fin 64) :
    iblk1 V c 0 t (ix2 p k) = V c main_v40 (ix2 (row1 t p) k) := by
  show V c main_v40 (((cfg1.win 0).blk t).view.emb (ix2 p k)) = V c main_v40 (ix2 (row1 t p) k)
  refine congrArg _ (funext fun a => Fin.ext ?_)
  obtain ⟨e0, e1, -⟩ := index1 t
  match a with
  | ⟨0, _⟩ => show win1_0.index t (0 : Fin 2) * 2000 + 1 * p.val = t.val * 2000 + p.val; omega
  | ⟨1, _⟩ => show win1_0.index t (1 : Fin 2) * 64 + 1 * k.val = k.val; omega

/-- The bias row's block at every point is the whole row. -/
theorem blk1_1 (c : Dev nD) (t : Fin cfg1.N) (u : Fin 1) (k : Fin 64) :
    iblk1 V c 1 t (ix2 u k) = V c main_v41 (ix2 u k) := by
  show V c main_v41 (((cfg1.win 1).blk t).view.emb (ix2 u k)) = V c main_v41 (ix2 u k)
  refine congrArg _ (funext fun a => Fin.ext ?_)
  obtain ⟨-, -, e2, e3, -⟩ := index1 t
  match a with
  | ⟨0, _⟩ => show win1_1.index t (0 : Fin 2) * 1 + 1 * u.val = u.val; omega
  | ⟨1, _⟩ => show win1_1.index t (1 : Fin 2) * 64 + 1 * k.val = k.val; omega

/-- The weights' block at every point is the whole matrix. -/
theorem blk1_2 (c : Dev nD) (t : Fin cfg1.N) (k : Fin 64) (q : Fin 64) :
    iblk1 V c 2 t (ix2 k q) = V c main_arg6 (ix2 k q) := by
  show V c main_arg6 (((cfg1.win 2).blk t).view.emb (ix2 k q)) = V c main_arg6 (ix2 k q)
  refine congrArg _ (funext fun a => Fin.ext ?_)
  obtain ⟨-, -, -, -, e4, e5, -⟩ := index1 t
  match a with
  | ⟨0, _⟩ => show win1_2.index t (0 : Fin 2) * 64 + 1 * k.val = k.val; omega
  | ⟨1, _⟩ => show win1_2.index t (1 : Fin 2) * 64 + 1 * q.val = q.val; omega

/-- Where entry `(p, q)` of the result's block at point `t` sits in the array. -/
theorem emb1_3 (t : Fin cfg1.N) (p : Fin 2000) (q : Fin 64) :
    ((cfg1.win 3).blk t).view.emb (ix2 p q) = ix2 (row1 t p) q := by
  refine funext fun a => Fin.ext ?_
  obtain ⟨-, -, -, -, -, -, e6, e7⟩ := index1 t
  match a with
  | ⟨0, _⟩ => show win1_3.index t (0 : Fin 2) * 2000 + 1 * p.val = t.val * 2000 + p.val; omega
  | ⟨1, _⟩ => show win1_3.index t (1 : Fin 2) * 64 + 1 * q.val = q.val; omega

/-- What point `t` writes back is block `t` of the whole-array function. -/
theorem flushed1 (c : Dev nD) (t : Fin cfg1.N) :
    (dat1 V c).flushed 3 t
      = ((cfg1.win 3).blk t).view.read (Elt Ideal) (Cert.Spec.biasReluProduct (V c main_v40) (V c main_v41) (V c main_arg6)) := by
  show (cfg1.win 3).cut (grid1.coords t) ((dat1 V c).after 3 t) = _
  rw [after1_3]
  unfold out1_3
  rw [View.canon_unit_zero zero2]
  simp only [View.ld_unit_zero (S := S2000x64) zero2, View.ld_unit_zero (S := S1x64) zero2, View.ld_unit_zero (S := S64x64) zero2]
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (ix2 p q)
    = Cert.Spec.biasReluProduct (V c main_v40) (V c main_v41) (V c main_arg6) (((cfg1.win 3).blk t).view.emb (ix2 p q))
  rw [emb1_3]
  refine (pay1_apply (iblk1 V c 0 t) (iblk1 V c 1 t) (iblk1 V c 2 t) p q).trans ?_
  unfold Cert.Spec.biasReluProduct
  refine Finset.sum_congr rfl fun k _ => ?_
  rw [blk1_0 V c t p k, blk1_1 V c t 0 k, blk1_2 V c t k q]

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v42).slice (win1_3.rect t)).set ↔ _
  rw [View.set_slice_whole, Rect.mem_set_unit]
  exact Iff.rfl

/-- Every row lies in some point's block: row `r` in block `r / 2000`. -/
theorem cover1 (i : S100000x64.Idx) : ∃ t : Fin cfg1.N, (cfg1.win 3).flush t = true ∧ i ∈ ((cfg1.win 3).blk t).view.set := by
  have h0 : (i 0).val < 100000 := (i 0).isLt
  have h1 : (i 1).val < 64 := (i 1).isLt
  have hN : grid1.N = 50 := N_1
  let t : Fin cfg1.N := ⟨(i 0).val / 2000, by show (i 0).val / 2000 < grid1.N; omega⟩
  refine ⟨t, flush1_3 t, ?_⟩
  rw [mem_blk1]
  obtain ⟨-, -, -, -, -, -, e6, e7⟩ := index1 t
  have ht : t.val = (i 0).val / 2000 := rfl
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The result array after the region, as one function of the operand arrays as the region finds them. -/
theorem final1 (c : Dev nD) :
    (dat1 V c).arrAt 3 cfg1.N = Cert.Spec.biasReluProduct (V c main_v40) (V c main_v41) (V c main_arg6) :=
  (dat1 V c).arrAt_eq_of_cover 3 _ (fun t _ => flushed1 V c t) cover1

end Cert.KernelIdeal.Arrays1

end
-- ==== Proof.Region2.lean ====
/-
  The third kernel's result array as one function of its operand arrays.

  Point `t` of the 50 reads rows `2000 t … 2000 t + 1999` of the aggregate and the whole `1 × 64` bias row, and
  writes the same rows of the result: entry `(p, q)` of its block is `max (a (2000 t + p, q) + b (0, q)) 0`, entry
  `(2000 t + p, q)` of the whole-array function; the row blocks cover the array.
-/
import proofs.«128732_j91190745629253_1_alg».proof.Proof.Gen.KernelIdeal.Frame
import proofs.«128732_j91190745629253_1_alg».proof.Proof.Payloads
import proofs.«128732_j91190745629253_1_alg».proof.Proof.Spec
import Idealize.ShloMosaic.Lib.Pipeline.Value

set_option maxRecDepth 16384

open Idealize.ShloMosaic Idealize.ShloMosaic.TcCoe Idealize.ShloMosaic.ValueIdx Idealize.SL.Sem
open Cert.KernelIdeal Cert.KernelIdeal.Gen Cert.KernelIdeal.Bodies
open scoped BigOperators

noncomputable section

namespace Cert.KernelIdeal.Arrays2

variable (V : (c : Dev nD) → (b : Ref sig .tc) → Buf (Elt Ideal) ((c : Thread nD τ).loc b))

theorem zero2 : (![0, 0] : Fin 2 → Nat) = fun _ => 0 := funext fun a => by fin_cases a <;> rfl

/-- The block index maps over the grid: the row-blocked windows are at block `(t, 0)`, the bias row at `(0, 0)`. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt50_2 (t : Fin cfg2.N) : t.val < 50 := by have h : t.val < grid2.N := t.isLt; have hN : grid2.N = 50 := N_2; omega

/-- Row `p` of point `t`'s block is row `2000 t + p` of the array. -/
def row2 (t : Fin cfg2.N) (p : Fin 2000) : Fin 100000 := ⟨t.val * 2000 + p.val, by have := lt50_2 t; omega⟩

/-- The aggregate's block at point `t`, entry `(p, q)`. -/
theorem blk2_0 (c : Dev nD) (t : Fin cfg2.N) (p : Fin 2000) (q : Fin 64) :
    iblk2 V c 0 t (ix2 p q) = V c main_v55 (ix2 (row2 t p) q) := by
  show V c main_v55 (((cfg2.win 0).blk t).view.emb (ix2 p q)) = V c main_v55 (ix2 (row2 t p) q)
  refine congrArg _ (funext fun a => Fin.ext ?_)
  obtain ⟨e0, e1, -⟩ := index2 t
  match a with
  | ⟨0, _⟩ => show win2_0.index t (0 : Fin 2) * 2000 + 1 * p.val = t.val * 2000 + p.val; omega
  | ⟨1, _⟩ => show win2_0.index t (1 : Fin 2) * 64 + 1 * q.val = q.val; omega

/-- The bias row's block at every point is the whole row. -/
theorem blk2_1 (c : Dev nD) (t : Fin cfg2.N) (u : Fin 1) (k : Fin 64) :
    iblk2 V c 1 t (ix2 u k) = V c main_v56 (ix2 u k) := by
  show V c main_v56 (((cfg2.win 1).blk t).view.emb (ix2 u k)) = V c main_v56 (ix2 u k)
  refine congrArg _ (funext fun a => Fin.ext ?_)
  obtain ⟨-, -, e2, e3, -⟩ := index2 t
  match a with
  | ⟨0, _⟩ => show win2_1.index t (0 : Fin 2) * 1 + 1 * u.val = u.val; omega
  | ⟨1, _⟩ => show win2_1.index t (1 : Fin 2) * 64 + 1 * k.val = k.val; omega

/-- Where entry `(p, q)` of the result's block at point `t` sits in the array. -/
theorem emb2_2 (t : Fin cfg2.N) (p : Fin 2000) (q : Fin 64) :
    ((cfg2.win 2).blk t).view.emb (ix2 p q) = ix2 (row2 t p) q := by
  refine funext fun a => Fin.ext ?_
  obtain ⟨-, -, -, -, e4, e5⟩ := index2 t
  match a with
  | ⟨0, _⟩ => show win2_2.index t (0 : Fin 2) * 2000 + 1 * p.val = t.val * 2000 + p.val; omega
  | ⟨1, _⟩ => show win2_2.index t (1 : Fin 2) * 64 + 1 * q.val = q.val; omega

/-- What point `t` writes back is block `t` of the whole-array function. -/
theorem flushed2 (c : Dev nD) (t : Fin cfg2.N) :
    (dat2 V c).flushed 2 t
      = ((cfg2.win 2).blk t).view.read (Elt Ideal) (Cert.Spec.biasRelu (V c main_v55) (V c main_v56)) := by
  show (cfg2.win 2).cut (grid2.coords t) ((dat2 V c).after 2 t) = _
  rw [after2_2]
  unfold out2_2
  rw [View.canon_unit_zero zero2]
  simp only [View.ld_unit_zero (S := S2000x64) zero2, View.ld_unit_zero (S := S1x64) zero2]
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = Cert.Spec.biasRelu (V c main_v55) (V c main_v56) (((cfg2.win 2).blk t).view.emb (ix2 p q))
  rw [emb2_2]
  refine (pay2_apply (iblk2 V c 0 t) (iblk2 V c 1 t) p q).trans ?_
  unfold Cert.Spec.biasRelu
  rw [blk2_0 V c t p q, blk2_1 V c t 0 q]

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v57).slice (win2_2.rect t)).set ↔ _
  rw [View.set_slice_whole, Rect.mem_set_unit]
  exact Iff.rfl

/-- Every row lies in some point's block: row `r` in block `r / 2000`. -/
theorem cover2 (i : S100000x64.Idx) : ∃ t : Fin cfg2.N, (cfg2.win 2).flush t = true ∧ i ∈ ((cfg2.win 2).blk t).view.set := by
  have h0 : (i 0).val < 100000 := (i 0).isLt
  have h1 : (i 1).val < 64 := (i 1).isLt
  have hN : grid2.N = 50 := N_2
  let t : Fin cfg2.N := ⟨(i 0).val / 2000, by show (i 0).val / 2000 < grid2.N; omega⟩
  refine ⟨t, flush2_2 t, ?_⟩
  rw [mem_blk2]
  obtain ⟨-, -, -, -, e4, e5⟩ := index2 t
  have ht : t.val = (i 0).val / 2000 := rfl
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The result array after the region, as one function of the operand arrays as the region finds them. -/
theorem final2 (c : Dev nD) :
    (dat2 V c).arrAt 2 cfg2.N = Cert.Spec.biasRelu (V c main_v55) (V c main_v56) :=
  (dat2 V c).arrAt_eq_of_cover 2 _ (fun t _ => flushed2 V c t) cover2

end Cert.KernelIdeal.Arrays2

end
-- ==== Proof.Region3.lean ====
/-
  The head kernel's result array as one function of its operand arrays.

  The grid has one point; every window's one block is its whole array. The block the point writes back is the
  whole `1000 × 1` result: entry `(g, 0)` is the two-layer head of row `g` of the pooled features.
-/
import proofs.«128732_j91190745629253_1_alg».proof.Proof.Gen.KernelIdeal.Frame
import proofs.«128732_j91190745629253_1_alg».proof.Proof.Payloads
import proofs.«128732_j91190745629253_1_alg».proof.Proof.Spec
import Idealize.ShloMosaic.Lib.Pipeline.Value

set_option maxRecDepth 16384

open Idealize.ShloMosaic Idealize.ShloMosaic.TcCoe Idealize.ShloMosaic.ValueIdx Idealize.SL.Sem
open Cert.KernelIdeal Cert.KernelIdeal.Gen Cert.KernelIdeal.Bodies
open scoped BigOperators

noncomputable section

namespace Cert.KernelIdeal.Arrays3

variable (V : (c : Dev nD) → (b : Ref sig .tc) → Buf (Elt Ideal) ((c : Thread nD τ).loc b))

theorem zero2 : (![0, 0] : Fin 2 → Nat) = fun _ => 0 := funext fun a => by fin_cases a <;> rfl

/-- Every window's block index at the one point is `(0, 0)`. -/
theorem index3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Window 0's one block is its whole array. -/
theorem blk3_0 (c : Dev nD) (t : Fin cfg3.N) (a₀ : Fin 1000) (a₁ : Fin 64) :
    iblk3 V c 0 t (ix2 a₀ a₁) = V c main_v69 (ix2 a₀ a₁) := by
  show V c main_v69 (((cfg3.win 0).blk t).view.emb (ix2 a₀ a₁)) = V c main_v69 (ix2 a₀ a₁)
  refine congrArg _ (funext fun a => Fin.ext ?_)
  obtain ⟨e0, e1, -⟩ := index3 t
  match a with
  | ⟨0, _⟩ => show win3_0.index t (0 : Fin 2) * 1000 + 1 * a₀.val = a₀.val; omega
  | ⟨1, _⟩ => show win3_0.index t (1 : Fin 2) * 64 + 1 * a₁.val = a₁.val; omega

/-- Window 1's one block is its whole array. -/
theorem blk3_1 (c : Dev nD) (t : Fin cfg3.N) (a₀ : Fin 64) (a₁ : Fin 32) :
    iblk3 V c 1 t (ix2 a₀ a₁) = V c main_arg8 (ix2 a₀ a₁) := by
  show V c main_arg8 (((cfg3.win 1).blk t).view.emb (ix2 a₀ a₁)) = V c main_arg8 (ix2 a₀ a₁)
  refine congrArg _ (funext fun a => Fin.ext ?_)
  obtain ⟨-, -, e0, e1, -⟩ := index3 t
  match a with
  | ⟨0, _⟩ => show win3_1.index t (0 : Fin 2) * 64 + 1 * a₀.val = a₀.val; omega
  | ⟨1, _⟩ => show win3_1.index t (1 : Fin 2) * 32 + 1 * a₁.val = a₁.val; omega

/-- Window 2's one block is its whole array. -/
theorem blk3_2 (c : Dev nD) (t : Fin cfg3.N) (a₀ : Fin 1) (a₁ : Fin 32) :
    iblk3 V c 2 t (ix2 a₀ a₁) = V c main_v70 (ix2 a₀ a₁) := by
  show V c main_v70 (((cfg3.win 2).blk t).view.emb (ix2 a₀ a₁)) = V c main_v70 (ix2 a₀ a₁)
  refine congrArg _ (funext fun a => Fin.ext ?_)
  obtain ⟨-, -, -, -, e0, e1, -⟩ := index3 t
  match a with
  | ⟨0, _⟩ => show win3_2.index t (0 : Fin 2) * 1 + 1 * a₀.val = a₀.val; omega
  | ⟨1, _⟩ => show win3_2.index t (1 : Fin 2) * 32 + 1 * a₁.val = a₁.val; omega

/-- Window 3's one block is its whole array. -/
theorem blk3_3 (c : Dev nD) (t : Fin cfg3.N) (a₀ : Fin 32) (a₁ : Fin 1) :
    iblk3 V c 3 t (ix2 a₀ a₁) = V c main_arg10 (ix2 a₀ a₁) := by
  show V c main_arg10 (((cfg3.win 3).blk t).view.emb (ix2 a₀ a₁)) = V c main_arg10 (ix2 a₀ a₁)
  refine congrArg _ (funext fun a => Fin.ext ?_)
  obtain ⟨-, -, -, -, -, -, e0, e1, -⟩ := index3 t
  match a with
  | ⟨0, _⟩ => show win3_3.index t (0 : Fin 2) * 32 + 1 * a₀.val = a₀.val; omega
  | ⟨1, _⟩ => show win3_3.index t (1 : Fin 2) * 1 + 1 * a₁.val = a₁.val; omega

/-- Window 4's one block is its whole array. -/
theorem blk3_4 (c : Dev nD) (t : Fin cfg3.N) (a₀ : Fin 1) (a₁ : Fin 1) :
    iblk3 V c 4 t (ix2 a₀ a₁) = V c main_v71 (ix2 a₀ a₁) := by
  show V c main_v71 (((cfg3.win 4).blk t).view.emb (ix2 a₀ a₁)) = V c main_v71 (ix2 a₀ a₁)
  refine congrArg _ (funext fun a => Fin.ext ?_)
  obtain ⟨-, -, -, -, -, -, -, -, e0, e1, -⟩ := index3 t
  match a with
  | ⟨0, _⟩ => show win3_4.index t (0 : Fin 2) * 1 + 1 * a₀.val = a₀.val; omega
  | ⟨1, _⟩ => show win3_4.index t (1 : Fin 2) * 1 + 1 * a₁.val = a₁.val; omega

/-- Where entry `(p, q)` of the result's one block sits in the array: at `(p, q)`. -/
theorem emb3_5 (t : Fin cfg3.N) (p : Fin 1000) (q : Fin 1) :
    ((cfg3.win 5).blk t).view.emb (ix2 p q) = ix2 p q := by
  refine funext fun a => Fin.ext ?_
  obtain ⟨-, -, -, -, -, -, -, -, -, -, e0, e1⟩ := index3 t
  match a with
  | ⟨0, _⟩ => show win3_5.index t (0 : Fin 2) * 1000 + 1 * p.val = p.val; omega
  | ⟨1, _⟩ => show win3_5.index t (1 : Fin 2) * 1 + 1 * q.val = q.val; omega

/-- What the one point writes back is the whole head, read through the whole-array block. -/
theorem flushed3 (c : Dev nD) (t : Fin cfg3.N) :
    (dat3 V c).flushed 5 t
      = ((cfg3.win 5).blk t).view.read (Elt Ideal)
          (Cert.Spec.head (V c main_v69) (V c main_arg8) (V c main_v70) (V c main_arg10) (V c main_v71)) := by
  show (cfg3.win 5).cut (grid3.coords t) ((dat3 V c).after 5 t) = _
  rw [after3_5]
  unfold out3_5
  rw [View.canon_unit_zero zero2]
  simp only [View.ld_unit_zero (S := S1000x64) zero2, View.ld_unit_zero (S := S64x32) zero2,
    View.ld_unit_zero (S := S1x32) zero2, View.ld_unit_zero (S := S32x1) zero2, View.ld_unit_zero (S := S1x1) zero2]
  funext j
  obtain ⟨p, q, rfl⟩ : ∃ (p : Fin 1000) (q : Fin 1), j = ix2 p q := ⟨j 0, j 1, eq_ix2 j⟩
  show k3_pay1 (iblk3 V c 0 t) (iblk3 V c 1 t) (iblk3 V c 2 t) (iblk3 V c 3 t) (iblk3 V c 4 t) (ix2 p q)
    = Cert.Spec.head (V c main_v69) (V c main_arg8) (V c main_v70) (V c main_arg10) (V c main_v71)
        (((cfg3.win 5).blk t).view.emb (ix2 p q))
  rw [emb3_5]
  refine (pay3_apply (iblk3 V c 0 t) (iblk3 V c 1 t) (iblk3 V c 2 t) (iblk3 V c 3 t) (iblk3 V c 4 t) p q).trans ?_
  unfold Cert.Spec.head
  rw [blk3_4 V c t 0 q]
  refine congrArg (· + V c main_v71 (ix2 (0 : Fin 1) q)) (Finset.sum_congr rfl fun k _ => ?_)
  rw [blk3_3 V c t k q, blk3_2 V c t 0 k]
  refine congrArg (fun s => max (s + V c main_v70 (ix2 (0 : Fin 1) k)) Cert.Spec.z32 * V c main_arg10 (ix2 k q))
    (Finset.sum_congr rfl fun j _ => ?_)
  rw [blk3_0 V c t p j, blk3_1 V c t j k]

/-- An index of the array is in the point's block iff each coordinate is in the block's range on its axis. -/
theorem mem_blk3 (t : Fin cfg3.N) (i : S1000x1.Idx) :
    i ∈ ((cfg3.win 5).blk t).view.set ↔ ∀ a : Fin 2, win3_5.index t a * S1000x1.size a ≤ (i a).val ∧ (i a).val < win3_5.index t a * S1000x1.size a + S1000x1.size a := by
  show i ∈ ((View.whole main_v72).slice (win3_5.rect t)).set ↔ _
  rw [View.set_slice_whole, Rect.mem_set_unit]
  exact Iff.rfl

/-- The one block covers the array. -/
theorem cover3 (i : S1000x1.Idx) : ∃ t : Fin cfg3.N, (cfg3.win 5).flush t = true ∧ i ∈ ((cfg3.win 5).blk t).view.set := by
  have h0 : (i 0).val < 1000 := (i 0).isLt
  have h1 : (i 1).val < 1 := (i 1).isLt
  refine ⟨t3_0, flush3_5 t3_0, ?_⟩
  rw [mem_blk3]
  obtain ⟨-, -, -, -, -, -, -, -, -, -, e0, e1⟩ := index3 t3_0
  intro a
  match a with
  | ⟨0, _⟩ => show win3_5.index t3_0 (0 : Fin 2) * 1000 ≤ (i 0).val ∧ (i 0).val < win3_5.index t3_0 (0 : Fin 2) * 1000 + 1000; omega
  | ⟨1, _⟩ => show win3_5.index t3_0 (1 : Fin 2) * 1 ≤ (i 1).val ∧ (i 1).val < win3_5.index t3_0 (1 : Fin 2) * 1 + 1; omega

/-- The result array after the region, as one function of the operand arrays as the region finds them. -/
theorem final3 (c : Dev nD) :
    (dat3 V c).arrAt 5 cfg3.N
      = Cert.Spec.head (V c main_v69) (V c main_arg8) (V c main_v70) (V c main_arg10) (V c main_v71) :=
  (dat3 V c).arrAt_eq_of_cover 5 _ (fun t _ => flushed3 V c t) cover3

end Cert.KernelIdeal.Arrays3

end
-- ==== Proof.RefDense.lean ====
/-
  The reference's four dense stages are the whole-array functions of `Spec`.

  The reference computes each dense stage in one piece: a `dot_general` for a product, a bias `[n]` broadcast to
  `[1, n]` and then over the rows, `maximum` against a broadcast zero for the positive part. Read at an entry:
  a `dot_general` with the plain dimension numbers is `∑ k, l (p, k) * r (k, q)`; the twice-broadcast bias at
  `(p, k)` is the bias at `k`, which is also what the bias reshaped to a `1 × n` row holds at `(0, k)` — the form
  the kernel program passes it in. So each stage, as a function of the stage before it, is the same function the
  kernel's row blocks assemble.
-/
import proofs.«128732_j91190745629253_1_alg».proof.Proof.Gen.ReferenceIdeal.Read
import proofs.«128732_j91190745629253_1_alg».proof.Proof.LibPlainDot
import proofs.«128732_j91190745629253_1_alg».proof.Proof.Spec
import Idealize.ShloMosaic.Lib.ValueLayout

open Idealize.ShloMosaic Idealize.ShloMosaic.ValueIdx
open Cert.ReferenceIdeal Cert.ReferenceIdeal.Read
open scoped BigOperators

noncomputable section

namespace Cert.ReferenceIdeal.Dense

variable (x0 : (⟨S100000x6, .f32⟩ : BufTy).Contents (Elt Ideal)) (x1 : (⟨S2x1600000, .i32⟩ : BufTy).Contents (Elt Ideal))
    (x3 : (⟨S100000, .i32⟩ : BufTy).Contents (Elt Ideal)) (x4 : (⟨S6x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x32, .f32⟩ : BufTy).Contents (Elt Ideal))
    (x9 : (⟨S32, .f32⟩ : BufTy).Contents (Elt Ideal)) (x10 : (⟨S32x1, .f32⟩ : BufTy).Contents (Elt Ideal))
    (x11 : (⟨S1, .f32⟩ : BufTy).Contents (Elt Ideal))

/-- The first layer's product. -/
theorem nodeProduct_eq : val_main_v27 (F := Ideal) x0 x4 = Cert.Spec.nodeProduct x0 x4 := by
  funext i
  obtain ⟨p, q, rfl⟩ : ∃ (p : Fin 100000) (q : Fin 64), i = ix2 p q := ⟨i 0, i 1, eq_ix2 i⟩
  unfold val_main_v27
  simp only [Host.dotGeneral]
  exact Cert.LibPlainDot.dotGeneral_plain (M := 100000) (K := 6) (N := 64) none _ x0 x4 p q

/-- The first layer's bias, broadcast over the rows, at `(p, k)`: the bias at `k`. -/
theorem bias1_apply (p : Fin 100000) (k : Fin 64) : val_main_v42 (F := Ideal) x5 (ix2 p k) = x5 (ix1 k) := by
  rw [val_main_v42_apply, val_main_v41_apply]
  exact congrArg x5 (funext fun a => by match a with | ⟨0, _⟩ => rfl)

/-- The rectified first layer at `(p, k)`. -/
theorem relu1_apply (h : (⟨1, ![64]⟩ : Shape).ShapeCasts ⟨2, ![1, 64]⟩) (p : Fin 100000) (k : Fin 64) :
    val_main_v44 (F := Ideal) x0 x1 x4 x5 (ix2 p k)
      = max (val_main_v40 (F := Ideal) x0 x1 x4 (ix2 p k) + shapeCast ⟨2, ![1, 64]⟩ x5 h (ix2 (0 : Fin 1) k)) Cert.Spec.z32 := by
  rw [val_main_v44_apply, val_main_v43_apply, bias1_apply, val_main_call0_v0_apply, val_main_call0_cst_apply,
    shapeCast_a_1a_apply]
  rfl

/-- Bias, positive part and the second layer's product, as a function of the first aggregate. -/
theorem biasReluProduct_eq (h : (⟨1, ![64]⟩ : Shape).ShapeCasts ⟨2, ![1, 64]⟩) :
    val_main_v45 (F := Ideal) x0 x1 x4 x5 x6
      = Cert.Spec.biasReluProduct (val_main_v40 (F := Ideal) x0 x1 x4) (shapeCast ⟨2, ![1, 64]⟩ x5 h) x6 := by
  funext i
  obtain ⟨p, q, rfl⟩ : ∃ (p : Fin 100000) (q : Fin 64), i = ix2 p q := ⟨i 0, i 1, eq_ix2 i⟩
  unfold val_main_v45
  simp only [Host.dotGeneral]
  refine (Cert.LibPlainDot.dotGeneral_plain (M := 100000) (K := 64) (N := 64) none _
    (val_main_v44 (F := Ideal) x0 x1 x4 x5) x6 p q).trans ?_
  unfold Cert.Spec.biasReluProduct
  refine Finset.sum_congr rfl fun k _ => ?_
  exact congrArg (· * x6 (ix2 k q)) (relu1_apply x0 x1 x4 x5 h p k)

/-- The second layer's bias, broadcast over the rows, at `(p, k)`: the bias at `k`. -/
theorem bias2_apply (p : Fin 100000) (k : Fin 64) : val_main_v60 (F := Ideal) x7 (ix2 p k) = x7 (ix1 k) := by
  rw [val_main_v60_apply, val_main_v59_apply]
  exact congrArg x7 (funext fun a => by match a with | ⟨0, _⟩ => rfl)

/-- Bias and positive part of the second layer, as a function of the second aggregate. -/
theorem biasRelu_eq (h : (⟨1, ![64]⟩ : Shape).ShapeCasts ⟨2, ![1, 64]⟩) :
    val_main_v62 (F := Ideal) x0 x1 x4 x5 x6 x7
      = Cert.Spec.biasRelu (val_main_v58 (F := Ideal) x0 x1 x4 x5 x6) (shapeCast ⟨2, ![1, 64]⟩ x7 h) := by
  funext i
  obtain ⟨p, q, rfl⟩ : ∃ (p : Fin 100000) (q : Fin 64), i = ix2 p q := ⟨i 0, i 1, eq_ix2 i⟩
  unfold Cert.Spec.biasRelu
  rw [val_main_v62_apply, val_main_v61_apply, bias2_apply, val_main_call1_v0_apply, val_main_call1_cst_apply]
  show _ = max (_ + shapeCast ⟨2, ![1, 64]⟩ x7 h (ix2 (0 : Fin 1) q)) _
  rw [shapeCast_a_1a_apply]
  rfl

/-- The head's first bias, broadcast over the rows, at `(p, k)`: the bias at `k`. -/
theorem bias3_apply (p : Fin 1000) (k : Fin 32) : val_main_v77 (F := Ideal) x9 (ix2 p k) = x9 (ix1 k) := by
  rw [val_main_v77_apply, val_main_v76_apply]
  exact congrArg x9 (funext fun a => by match a with | ⟨0, _⟩ => rfl)

/-- The head's second bias, broadcast over the rows, at `(p, q)`: the bias. -/
theorem bias4_apply (p : Fin 1000) (q : Fin 1) : val_main_v82 (F := Ideal) x11 (ix2 p q) = x11 (ix1 q) := by
  rw [val_main_v82_apply, val_main_v81_apply]
  exact congrArg x11 (funext fun a => by match a with | ⟨0, _⟩ => exact Fin.ext (by have := q.isLt; show 0 = q.val; omega))

/-- The head's hidden layer at `(p, k)`. -/
theorem hidden_apply (h9 : (⟨1, ![32]⟩ : Shape).ShapeCasts ⟨2, ![1, 32]⟩) (p : Fin 1000) (k : Fin 32) :
    val_main_v79 (F := Ideal) x0 x1 x3 x4 x5 x6 x7 x8 x9 (ix2 p k)
      = max ((∑ j : Fin 64, val_main_v74 (F := Ideal) x0 x1 x3 x4 x5 x6 x7 (ix2 p j) * x8 (ix2 j k))
          + shapeCast ⟨2, ![1, 32]⟩ x9 h9 (ix2 (0 : Fin 1) k)) Cert.Spec.z32 := by
  rw [val_main_v79_apply, val_main_v78_apply, bias3_apply, val_main_call2_v0_apply, val_main_call2_cst_apply,
    shapeCast_a_1a_apply]
  have e : val_main_v75 (F := Ideal) x0 x1 x3 x4 x5 x6 x7 x8 (ix2 p k)
      = ∑ j : Fin 64, val_main_v74 (F := Ideal) x0 x1 x3 x4 x5 x6 x7 (ix2 p j) * x8 (ix2 j k) := by
    unfold val_main_v75
    simp only [Host.dotGeneral]
    exact Cert.LibPlainDot.dotGeneral_plain (M := 1000) (K := 64) (N := 32) none _
      (val_main_v74 (F := Ideal) x0 x1 x3 x4 x5 x6 x7) x8 p k
  rw [e]
  rfl

/-- The two-layer head, as a function of the pooled features. -/
theorem head_eq (h9 : (⟨1, ![32]⟩ : Shape).ShapeCasts ⟨2, ![1, 32]⟩) (h11 : (⟨1, ![1]⟩ : Shape).ShapeCasts ⟨2, ![1, 1]⟩) :
    val_main_v83 (F := Ideal) x0 x1 x3 x4 x5 x6 x7 x8 x9 x10 x11
      = Cert.Spec.head (val_main_v74 (F := Ideal) x0 x1 x3 x4 x5 x6 x7) x8 (shapeCast ⟨2, ![1, 32]⟩ x9 h9) x10
          (shapeCast ⟨2, ![1, 1]⟩ x11 h11) := by
  funext i
  obtain ⟨p, q, rfl⟩ : ∃ (p : Fin 1000) (q : Fin 1), i = ix2 p q := ⟨i 0, i 1, eq_ix2 i⟩
  unfold Cert.Spec.head
  rw [val_main_v83_apply, bias4_apply]
  show _ = _ + shapeCast ⟨2, ![1, 1]⟩ x11 h11 (ix2 (0 : Fin 1) q)
  rw [shapeCast_a_1a_apply]
  refine congrArg (· + x11 (ix1 q)) ?_
  unfold val_main_v80
  simp only [Host.dotGeneral]
  refine (Cert.LibPlainDot.dotGeneral_plain (M := 1000) (K := 32) (N := 1) none _
    (val_main_v79 (F := Ideal) x0 x1 x3 x4 x5 x6 x7 x8 x9) x10 p q).trans ?_
  refine Finset.sum_congr rfl fun k _ => ?_
  exact congrArg (· * x10 (ix2 k q)) (hidden_apply x0 x1 x3 x4 x5 x6 x7 x8 x9 h9 p k)

end Cert.ReferenceIdeal.Dense

end
-- ==== Proof.Stages.lean ====
/-
  The kernel program's buffer contents at each boundary, as the reference's stages of the arguments.

  Both programs do the same host operations around the dense stages: the self-loops appended to the edge lists, the
  degrees by a scatter-add of ones, their inverse square roots gathered at both ends of every edge and multiplied
  (the edge weights), and per layer a gather of rows at the edges' sources, the scaling by the edge weights and a
  scatter-add into the targets; then the mean pooling by graph. These chains are never opened here: each boundary's
  contents are computed by applying the stretch's operations to the contents before it, and the result is the
  reference's stage of the same name because it is the same operations applied to equal operands. The four dense
  stages come from the kernels' whole-array forms (the four region modules), and agree with the reference's by
  `RefDense`.

  Carried along: the two edge index lists with self-loops, the edge weights and the arguments, which no later
  stretch or kernel writes.
-/
import proofs.«128732_j91190745629253_1_alg».proof.Proof.Gen.KernelIdeal.Frame
import proofs.«128732_j91190745629253_1_alg».proof.Proof.Gen.ReferenceIdeal.Read
import proofs.«128732_j91190745629253_1_alg».proof.Proof.Region0
import proofs.«128732_j91190745629253_1_alg».proof.Proof.Region1
import proofs.«128732_j91190745629253_1_alg».proof.Proof.Region2
import proofs.«128732_j91190745629253_1_alg».proof.Proof.Region3
import proofs.«128732_j91190745629253_1_alg».proof.Proof.RefDense

set_option maxRecDepth 16384

open Idealize.ShloMosaic Idealize.ShloMosaic.TcCoe Idealize.SL.Sem Idealize.ShloMosaic.StableHlo
open Cert.KernelIdeal Cert.KernelIdeal.Gen

noncomputable section

namespace Cert.KernelIdeal.Stages

variable (m : (ℓ : Loc nD τ sig) → Buf (Elt Ideal) ℓ) (ρ : Dev nD → PrngReg) (c : Dev nD)

/-! ## What is carried from boundary to boundary -/

theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact W2_v3 m ρ c
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)

theorem W1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl
theorem W2_v6 : W2 m ρ c (Proc.devRef .tc main_v6) = Cert.ReferenceIdeal.Read.val_main_v6 (F := Ideal) (m ((c : Thread nD τ).loc main_arg1)) :=
  (W2_of_ne m ρ c main_v6 (by decide)).trans (W1_v6 m ρ c)
theorem W3_v6 : W3 m ρ c (Proc.devRef .tc main_v6) = Cert.ReferenceIdeal.Read.val_main_v6 (F := Ideal) (m ((c : Thread nD τ).loc main_arg1)) := by
  show StableHlo.after hostOps1 (W2 m ρ c) (Proc.devRef .tc main_v6) = _
  after_results_simp
  exact W2_v6 m ρ c
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)

theorem W1_v26 : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp
  rfl
theorem W2_v26 : W2 m ρ c (Proc.devRef .tc main_v26) = Cert.ReferenceIdeal.Read.val_main_v26 (F := Ideal) (m ((c : Thread nD τ).loc main_arg1)) :=
  (W2_of_ne m ρ c main_v26 (by decide)).trans (W1_v26 m ρ c)
theorem W3_v26 : W3 m ρ c (Proc.devRef .tc main_v26) = Cert.ReferenceIdeal.Read.val_main_v26 (F := Ideal) (m ((c : Thread nD τ).loc main_arg1)) := by
  show StableHlo.after hostOps1 (W2 m ρ c) (Proc.devRef .tc main_v26) = _
  after_results_simp
  exact W2_v26 m ρ c
theorem W4_v26 : W4 m ρ c (Proc.devRef .tc main_v26) = Cert.ReferenceIdeal.Read.val_main_v26 (F := Ideal) (m ((c : Thread nD τ).loc main_arg1)) :=
  (W4_of_ne m ρ c main_v26 (by decide)).trans (W3_v26 m ρ c)

theorem W1_arg0 : W1 m ρ c (Proc.devRef .tc main_arg0) = (m ((c : Thread nD τ).loc main_arg0)) := by
  show StableHlo.after hostOps0 (W0 m ρ c) (Proc.devRef .tc main_arg0) = _
  after_results_simp

theorem W1_arg4 : W1 m ρ c (Proc.devRef .tc main_arg4) = (m ((c : Thread nD τ).loc main_arg4)) := by
  show StableHlo.after hostOps0 (W0 m ρ c) (Proc.devRef .tc main_arg4) = _
  after_results_simp

theorem W1_arg5 : W1 m ρ c (Proc.devRef .tc main_arg5) = (m ((c : Thread nD τ).loc main_arg5)) := by
  show StableHlo.after hostOps0 (W0 m ρ c) (Proc.devRef .tc main_arg5) = _
  after_results_simp
theorem W2_arg5 : W2 m ρ c (Proc.devRef .tc main_arg5) = (m ((c : Thread nD τ).loc main_arg5)) :=
  (W2_of_ne m ρ c main_arg5 (by decide)).trans (W1_arg5 m ρ c)

theorem W1_arg6 : W1 m ρ c (Proc.devRef .tc main_arg6) = (m ((c : Thread nD τ).loc main_arg6)) := by
  show StableHlo.after hostOps0 (W0 m ρ c) (Proc.devRef .tc main_arg6) = _
  after_results_simp
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c

theorem W1_arg7 : W1 m ρ c (Proc.devRef .tc main_arg7) = (m ((c : Thread nD τ).loc main_arg7)) := by
  show StableHlo.after hostOps0 (W0 m ρ c) (Proc.devRef .tc main_arg7) = _
  after_results_simp
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c
theorem W4_arg7 : W4 m ρ c (Proc.devRef .tc main_arg7) = (m ((c : Thread nD τ).loc main_arg7)) :=
  (W4_of_ne m ρ c main_arg7 (by decide)).trans (W3_arg7 m ρ c)

theorem W1_arg3 : W1 m ρ c (Proc.devRef .tc main_arg3) = (m ((c : Thread nD τ).loc main_arg3)) := by
  show StableHlo.after hostOps0 (W0 m ρ c) (Proc.devRef .tc main_arg3) = _
  after_results_simp
theorem W2_arg3 : W2 m ρ c (Proc.devRef .tc main_arg3) = (m ((c : Thread nD τ).loc main_arg3)) :=
  (W2_of_ne m ρ c main_arg3 (by decide)).trans (W1_arg3 m ρ c)
theorem W3_arg3 : W3 m ρ c (Proc.devRef .tc main_arg3) = (m ((c : Thread nD τ).loc main_arg3)) := by
  show StableHlo.after hostOps1 (W2 m ρ c) (Proc.devRef .tc main_arg3) = _
  after_results_simp
  exact W2_arg3 m ρ c
theorem W4_arg3 : W4 m ρ c (Proc.devRef .tc main_arg3) = (m ((c : Thread nD τ).loc main_arg3)) :=
  (W4_of_ne m ρ c main_arg3 (by decide)).trans (W3_arg3 m ρ c)
theorem W5_arg3 : W5 m ρ c (Proc.devRef .tc main_arg3) = (m ((c : Thread nD τ).loc main_arg3)) := by
  show StableHlo.after hostOps2 (W4 m ρ c) (Proc.devRef .tc main_arg3) = _
  after_results_simp
  exact W4_arg3 m ρ c
theorem W6_arg3 : W6 m ρ c (Proc.devRef .tc main_arg3) = (m ((c : Thread nD τ).loc main_arg3)) :=
  (W6_of_ne m ρ c main_arg3 (by decide)).trans (W5_arg3 m ρ c)

theorem W1_arg9 : W1 m ρ c (Proc.devRef .tc main_arg9) = (m ((c : Thread nD τ).loc main_arg9)) := by
  show StableHlo.after hostOps0 (W0 m ρ c) (Proc.devRef .tc main_arg9) = _
  after_results_simp
theorem W2_arg9 : W2 m ρ c (Proc.devRef .tc main_arg9) = (m ((c : Thread nD τ).loc main_arg9)) :=
  (W2_of_ne m ρ c main_arg9 (by decide)).trans (W1_arg9 m ρ c)
theorem W3_arg9 : W3 m ρ c (Proc.devRef .tc main_arg9) = (m ((c : Thread nD τ).loc main_arg9)) := by
  show StableHlo.after hostOps1 (W2 m ρ c) (Proc.devRef .tc main_arg9) = _
  after_results_simp
  exact W2_arg9 m ρ c
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) := by
  show StableHlo.after hostOps2 (W4 m ρ c) (Proc.devRef .tc main_arg9) = _
  after_results_simp
  exact W4_arg9 m ρ c
theorem W6_arg9 : W6 m ρ c (Proc.devRef .tc main_arg9) = (m ((c : Thread nD τ).loc main_arg9)) :=
  (W6_of_ne m ρ c main_arg9 (by decide)).trans (W5_arg9 m ρ c)

theorem W1_arg11 : W1 m ρ c (Proc.devRef .tc main_arg11) = (m ((c : Thread nD τ).loc main_arg11)) := by
  show StableHlo.after hostOps0 (W0 m ρ c) (Proc.devRef .tc main_arg11) = _
  after_results_simp
theorem W2_arg11 : W2 m ρ c (Proc.devRef .tc main_arg11) = (m ((c : Thread nD τ).loc main_arg11)) :=
  (W2_of_ne m ρ c main_arg11 (by decide)).trans (W1_arg11 m ρ c)
theorem W3_arg11 : W3 m ρ c (Proc.devRef .tc main_arg11) = (m ((c : Thread nD τ).loc main_arg11)) := by
  show StableHlo.after hostOps1 (W2 m ρ c) (Proc.devRef .tc main_arg11) = _
  after_results_simp
  exact W2_arg11 m ρ c
theorem W4_arg11 : W4 m ρ c (Proc.devRef .tc main_arg11) = (m ((c : Thread nD τ).loc main_arg11)) :=
  (W4_of_ne m ρ c main_arg11 (by decide)).trans (W3_arg11 m ρ c)
theorem W5_arg11 : W5 m ρ c (Proc.devRef .tc main_arg11) = (m ((c : Thread nD τ).loc main_arg11)) := by
  show StableHlo.after hostOps2 (W4 m ρ c) (Proc.devRef .tc main_arg11) = _
  after_results_simp
  exact W4_arg11 m ρ c
theorem W6_arg11 : W6 m ρ c (Proc.devRef .tc main_arg11) = (m ((c : Thread nD τ).loc main_arg11)) :=
  (W6_of_ne m ρ c main_arg11 (by decide)).trans (W5_arg11 m ρ c)

theorem W1_arg8 : W1 m ρ c (Proc.devRef .tc main_arg8) = (m ((c : Thread nD τ).loc main_arg8)) := by
  show StableHlo.after hostOps0 (W0 m ρ c) (Proc.devRef .tc main_arg8) = _
  after_results_simp
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) := by
  show StableHlo.after hostOps1 (W2 m ρ c) (Proc.devRef .tc main_arg8) = _
  after_results_simp
  exact W2_arg8 m ρ c
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) := by
  show StableHlo.after hostOps2 (W4 m ρ c) (Proc.devRef .tc main_arg8) = _
  after_results_simp
  exact W4_arg8 m ρ c
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) := by
  show StableHlo.after hostOps3 (W6 m ρ c) (Proc.devRef .tc main_arg8) = _
  after_results_simp
  exact W6_arg8 m ρ c

theorem W1_arg10 : W1 m ρ c (Proc.devRef .tc main_arg10) = (m ((c : Thread nD τ).loc main_arg10)) := by
  show StableHlo.after hostOps0 (W0 m ρ c) (Proc.devRef .tc main_arg10) = _
  after_results_simp
theorem W2_arg10 : W2 m ρ c (Proc.devRef .tc main_arg10) = (m ((c : Thread nD τ).loc main_arg10)) :=
  (W2_of_ne m ρ c main_arg10 (by decide)).trans (W1_arg10 m ρ c)
theorem W3_arg10 : W3 m ρ c (Proc.devRef .tc main_arg10) = (m ((c : Thread nD τ).loc main_arg10)) := by
  show StableHlo.after hostOps1 (W2 m ρ c) (Proc.devRef .tc main_arg10) = _
  after_results_simp
  exact W2_arg10 m ρ c
theorem W4_arg10 : W4 m ρ c (Proc.devRef .tc main_arg10) = (m ((c : Thread nD τ).loc main_arg10)) :=
  (W4_of_ne m ρ c main_arg10 (by decide)).trans (W3_arg10 m ρ c)
theorem W5_arg10 : W5 m ρ c (Proc.devRef .tc main_arg10) = (m ((c : Thread nD τ).loc main_arg10)) := by
  show StableHlo.after hostOps2 (W4 m ρ c) (Proc.devRef .tc main_arg10) = _
  after_results_simp
  exact W4_arg10 m ρ c
theorem W6_arg10 : W6 m ρ c (Proc.devRef .tc main_arg10) = (m ((c : Thread nD τ).loc main_arg10)) :=
  (W6_of_ne m ρ c main_arg10 (by decide)).trans (W5_arg10 m ρ c)
theorem W7_arg10 : W7 m ρ c (Proc.devRef .tc main_arg10) = (m ((c : Thread nD τ).loc main_arg10)) := by
  show StableHlo.after hostOps3 (W6 m ρ c) (Proc.devRef .tc main_arg10) = _
  after_results_simp
  exact W6_arg10 m ρ c

/-! ## The first product -/

theorem W2_v27 : W2 m ρ c (Proc.devRef .tc main_v27) = Cert.ReferenceIdeal.Read.val_main_v27 (F := Ideal) (m ((c : Thread nD τ).loc main_arg0)) (m ((c : Thread nD τ).loc main_arg4)) :=
  (W2_arr m ρ c 2).trans ((Cert.KernelIdeal.Arrays0.final0 (V1 m ρ) c).trans (by
    rw [show V1 m ρ c main_arg0 = _ from W1_arg0 m ρ c, show V1 m ρ c main_arg4 = _ from W1_arg4 m ρ c]
    exact (Cert.ReferenceIdeal.Dense.nodeProduct_eq _ _).symm))

/-! ## The first aggregate and its bias row -/

theorem W3_v40 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg4)) := by
  show StableHlo.after hostOps1 (W2 m ρ c) (Proc.devRef .tc main_v40) = _
  after_results_simp
  rw [W2_v3 m ρ c, W2_v6 m ρ c, W2_v26 m ρ c, W2_v27 m ρ c]
  rfl

theorem W3_v41 : W3 m ρ c (Proc.devRef .tc main_v41) = shapeCast S1x64 (m ((c : Thread nD τ).loc main_arg5)) shapeCasts_S64_S1x64 := by
  show StableHlo.after hostOps1 (W2 m ρ c) (Proc.devRef .tc main_v41) = _
  after_results_simp
  rw [W2_arg5 m ρ c]
  rfl

/-! ## The second product -/

theorem W4_v42 : W4 m ρ c (Proc.devRef .tc main_v42) = Cert.ReferenceIdeal.Read.val_main_v45 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
  (W4_arr m ρ c 3).trans ((Cert.KernelIdeal.Arrays1.final1 (V3 m ρ) c).trans (by
    rw [show V3 m ρ c main_v40 = _ from W3_v40 m ρ c, show V3 m ρ c main_v41 = _ from W3_v41 m ρ c,
      show V3 m ρ c main_arg6 = _ from W3_arg6 m ρ c]
    exact (Cert.ReferenceIdeal.Dense.biasReluProduct_eq _ _ _ _ _ shapeCasts_S64_S1x64).symm))

/-! ## The second aggregate and its bias row -/

theorem W5_v55 : W5 m ρ c (Proc.devRef .tc main_v55) = Cert.ReferenceIdeal.Read.val_main_v58 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps2 (W4 m ρ c) (Proc.devRef .tc main_v55) = _
  after_results_simp
  rw [W4_v3 m ρ c, W4_v6 m ρ c, W4_v26 m ρ c, W4_v42 m ρ c]
  rfl

theorem W5_v56 : W5 m ρ c (Proc.devRef .tc main_v56) = shapeCast S1x64 (m ((c : Thread nD τ).loc main_arg7)) shapeCasts_S64_S1x64 := by
  show StableHlo.after hostOps2 (W4 m ρ c) (Proc.devRef .tc main_v56) = _
  after_results_simp
  rw [W4_arg7 m ρ c]
  rfl

/-! ## The rectified second layer -/

theorem W6_v57 : W6 m ρ c (Proc.devRef .tc main_v57) = Cert.ReferenceIdeal.Read.val_main_v62 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (W6_arr m ρ c 2).trans ((Cert.KernelIdeal.Arrays2.final2 (V5 m ρ) c).trans (by
    rw [show V5 m ρ c main_v55 = _ from W5_v55 m ρ c, show V5 m ρ c main_v56 = _ from W5_v56 m ρ c]
    exact (Cert.ReferenceIdeal.Dense.biasRelu_eq _ _ _ _ _ _ shapeCasts_S64_S1x64).symm))

/-! ## The pooled features and the head's bias rows -/

theorem W7_v69 : W7 m ρ c (Proc.devRef .tc main_v69) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v69) = _
  after_results_simp
  rw [W6_v57 m ρ c, W6_arg3 m ρ c]
  rfl

theorem W7_v70 : W7 m ρ c (Proc.devRef .tc main_v70) = shapeCast S1x32 (m ((c : Thread nD τ).loc main_arg9)) shapeCasts_S32_S1x32 := by
  show StableHlo.after hostOps3 (W6 m ρ c) (Proc.devRef .tc main_v70) = _
  after_results_simp
  rw [W6_arg9 m ρ c]
  rfl

theorem W7_v71 : W7 m ρ c (Proc.devRef .tc main_v71) = shapeCast S1x1 (m ((c : Thread nD τ).loc main_arg11)) shapeCasts_S1_S1x1 := by
  show StableHlo.after hostOps3 (W6 m ρ c) (Proc.devRef .tc main_v71) = _
  after_results_simp
  rw [W6_arg11 m ρ c]
  rfl

/-! ## The result -/

theorem W8_v72 : W8 m ρ c (Proc.devRef .tc main_v72)
    = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W8_arr m ρ c 5).trans ((Cert.KernelIdeal.Arrays3.final3 (V7 m ρ) c).trans (by
    rw [show V7 m ρ c main_v69 = _ from W7_v69 m ρ c, show V7 m ρ c main_arg8 = _ from W7_arg8 m ρ c,
      show V7 m ρ c main_v70 = _ from W7_v70 m ρ c, show V7 m ρ c main_arg10 = _ from W7_arg10 m ρ c,
      show V7 m ρ c main_v71 = _ from W7_v71 m ρ c]
    exact (Cert.ReferenceIdeal.Dense.head_eq _ _ _ _ _ _ _ _ _ _ _ shapeCasts_S32_S1x32 shapeCasts_S1_S1x1).symm))

end Cert.KernelIdeal.Stages

end
-- ==== Proof.lean ====
/-
  A two-layer graph convolution, mean pooling by graph and a small two-layer head: the kernel program against its
  reference, over the extended reals.

  Both programs compute, from node features `x`, the edge list (with a self-loop appended for every node), the
  graph id of every node and the weights:

    deg = scatter-add of ones at the edges' targets,  norm(e) = deg(src e)^(-1/2) * deg(dst e)^(-1/2),
    agg₁ = scatter-add over the edges of (x W₁)(src e) * norm(e) at dst e,
    agg₂ = scatter-add over the edges of (relu(agg₁ + b₁) W₂)(src e) * norm(e) at dst e,
    pooled = (scatter-add of relu(agg₂ + b₂) by graph id) / max(count by graph id, 1),
    out = relu(pooled fw₁ + fb₁) fw₂ + fb₂.

  The gathers, scatter-adds and the pooling are the same host operations in both programs. They differ in the four
  dense stages — `x W₁`; `relu(agg₁ + b₁) W₂`; `relu(agg₂ + b₂)`; the head — which the kernel program computes
  in Pallas kernels, the first three over fifty blocks of 2000 rows, with operands rounded to bf16 on the way into
  each product (the identity at the ideal values) and each bias passed as a `1 × n` row. Each row of a dense
  stage's result depends on the same row of its first operand only, so the row blocks assemble to exactly the
  whole-array function the reference computes in one piece: no regrouping of any sum, and no use of the inputs'
  finiteness.

  The three frames: the two kernel programs' are the generated frame certificates; the reference's is its run with
  the result dropped. `preserves` has no conjunct (the ideal pass rewrote nothing). `algebraic`: the kernel
  program's run ends with the result buffer at the last boundary's contents, which `Stages` reads as the
  reference's last stage of the arguments; the reference's run ends at the same stage of its own arguments, and the
  arguments agree.
-/
import proofs.«128732_j91190745629253_1_alg».proof.Defs
import proofs.«128732_j91190745629253_1_alg».proof.Proof.Gen.Kernel
import proofs.«128732_j91190745629253_1_alg».proof.Proof.Gen.Kernel.Frame
import proofs.«128732_j91190745629253_1_alg».proof.Proof.Gen.KernelIdeal
import proofs.«128732_j91190745629253_1_alg».proof.Proof.Gen.KernelIdeal.Frame
import proofs.«128732_j91190745629253_1_alg».proof.Proof.Gen.ReferenceIdeal
import proofs.«128732_j91190745629253_1_alg».proof.Proof.Gen.Pre_finite_inputs
import proofs.«128732_j91190745629253_1_alg».proof.Proof.Gen.ReferenceIdeal.Run
import proofs.«128732_j91190745629253_1_alg».proof.Proof.Gen.ReferenceIdeal.Read
import proofs.«128732_j91190745629253_1_alg».proof.Proof.KernelRun
import proofs.«128732_j91190745629253_1_alg».proof.Proof.Stages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.Read.val_main_v83 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Stages.W8_v72 m ρ c), (h c).2⟩)
      (Cert.KernelIdeal.Arrays.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, -, e3, e4, e5, e6, e7, e8, e9, e10, e11⟩ := hagree c
    rw [Cert.ReferenceIdeal.Read.val_main_v83_eq, e0, e1, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
